-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S192x64 : Shape := ⟨2, ![192, 64]⟩
abbrev S192 : Shape := ⟨1, ![192]⟩
abbrev S256x64 : Shape := ⟨2, ![256, 64]⟩
abbrev S256 : Shape := ⟨1, ![256]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S256x64 .f32) (main_arg9 : FVec F S256 .f32) (main_arg10 : FVec F S256 .f32) (main_arg11 : FVec F S64x64 .f32) (main_arg12 : FVec F S64 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_v48 main_v49 main_v50

def fn_part1 {F : FTy → Type} [FloatOps F] (main_arg5 : FVec F S192 .f32) (main_arg6 : FVec F S192 .f32) (main_arg7 : FVec F S256x64 .f32) (main_arg8 : FVec F S256x64 .f32) (main_arg9 : FVec F S256 .f32) (main_arg10 : FVec F S256 .f32) (main_arg11 : FVec F S64x64 .f32) (main_arg12 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192 .f32 := Host.absf main_arg5
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg6
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S64x64 .f32) (main_arg3 : FVec F S192x64 .f32) (main_arg4 : FVec F S192x64 .f32) (main_arg5 : FVec F S192 .f32) (main_arg6 : FVec F S192 .f32) (main_arg7 : FVec F S256x64 .f32) (main_arg8 : FVec F S256x64 .f32) (main_arg9 : FVec F S256 .f32) (main_arg10 : FVec F S256 .f32) (main_arg11 : FVec F S64x64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S192x64 .f32 := Host.absf main_arg4
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S192x64 : Shape := ⟨2, ![192, 64]⟩
abbrev S192 : Shape := ⟨1, ![192]⟩
abbrev S256x64 : Shape := ⟨2, ![256, 64]⟩
abbrev S256 : Shape := ⟨1, ![256]⟩
abbrev S64 : Shape := ⟨1, ![64]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x192 : Shape := ⟨2, ![64, 192]⟩
abbrev S1x192 : Shape := ⟨2, ![1, 192]⟩
abbrev S64x256 : Shape := ⟨2, ![64, 256]⟩
abbrev S1x256 : Shape := ⟨2, ![1, 256]⟩
abbrev S1x64 : Shape := ⟨2, ![1, 64]⟩
abbrev S2000x64 : Shape := ⟨2, ![2000, 64]⟩
abbrev S2000x192 : Shape := ⟨2, ![2000, 192]⟩
abbrev S2000x256 : Shape := ⟨2, ![2000, 256]⟩

abbrev nBuf : Space → Nat
  | .hbm => 53
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S256x64, .f32⟩
  | .hbm, ⟨8, _⟩ => ⟨S256x64, .f32⟩
  | .hbm, ⟨9, _⟩ => ⟨S256, .f32⟩
  | .hbm, ⟨10, _⟩ => ⟨S256, .f32⟩
  | .hbm, ⟨11, _⟩ => ⟨S64x64, .f32⟩
  | .hbm, ⟨12, _⟩ => ⟨S64, .f32⟩
  | .hbm, ⟨13, _⟩ => ⟨S100000x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S64x192, .f32⟩
  | .hbm, ⟨44, _⟩ => ⟨S64x192, .f32⟩
  | .hbm, ⟨45, _⟩ => ⟨S1x192, .f32⟩
  | .hbm, ⟨46, _⟩ => ⟨S1x192, .f32⟩
  | .hbm, ⟨47, _⟩ => ⟨S64x256, .f32⟩
  | .hbm, ⟨48, _⟩ => ⟨S1x256, .f32⟩
  | .hbm, ⟨49, _⟩ => ⟨S1x256, .f32⟩
  | .hbm, ⟨50, _⟩ => ⟨S64x64, .f32⟩
  | .hbm, ⟨51, _⟩ => ⟨S1x64, .f32⟩
  | .hbm, ⟨52, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S64x192, .f32⟩
  | .local _ .vmem, ⟨10, _⟩ => ⟨S64x192, .f32⟩
  | .local _ .vmem, ⟨11, _⟩ => ⟨S1x192, .f32⟩
  | .local _ .vmem, ⟨12, _⟩ => ⟨S1x192, .f32⟩
  | .local _ .vmem, ⟨13, _⟩ => ⟨S64x256, .f32⟩
  | .local _ .vmem, ⟨14, _⟩ => ⟨S1x256, .f32⟩
  | .local _ .vmem, ⟨15, _⟩ => ⟨S1x256, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S192x64_S64x192_1_0 : S192x64.Transposes [1, 0] S64x192
  shapeCasts_S192_S1x192 : S192.ShapeCasts S1x192
  transposes_S256x64_S64x256_1_0 : S256x64.Transposes [1, 0] S64x256
  shapeCasts_S256_S1x256 : S256.ShapeCasts S1x256
  transposes_S64x64_S64x64_1_0 : S64x64.Transposes [1, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_128_S2000x64 : S2000x256.Slices ![0, 128] S2000x64
  slices_S2000x256_o0_192_S2000x64 : S2000x256.Slices ![0, 192] S2000x64
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x192_S2000x192_1_0_0_1_n_n_wf : DotDims.WF S2000x64 S64x192 S2000x192 [1] [0] [0] [1] [] []
  dot_S2000x64_S64x256_S2000x256_1_0_0_1_n_n_wf : DotDims.WF S2000x64 S64x256 S2000x256 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x256.size a ≤ S64x256.size a
  hwx1_6 : ∀ i : grid1.Coords, EltTy.bits .f32 = 32 ∨ (Rect.block (s := S64x256) S64x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x64.size a ≤ S100000x64.size a
  hwx1_11 : ∀ i : grid1.Coords, EltTy.bits .f32 = 32 ∨ (Rect.block (s := S100000x64) S2000x64.size (cc1_transform_11 i) (hinb1_11 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S64x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v33) S2000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S192x64 : Shape := ⟨2, ![192, 64]⟩
abbrev S192 : Shape := ⟨1, ![192]⟩
abbrev S256x64 : Shape := ⟨2, ![256, 64]⟩
abbrev S256 : Shape := ⟨1, ![256]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x192 : Shape := ⟨2, ![64, 192]⟩
abbrev S100000x192 : Shape := ⟨2, ![100000, 192]⟩
abbrev S1x192 : Shape := ⟨2, ![1, 192]⟩
abbrev S64x256 : Shape := ⟨2, ![64, 256]⟩
abbrev S100000x256 : Shape := ⟨2, ![100000, 256]⟩
abbrev S1x256 : Shape := ⟨2, ![1, 256]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S256x64, .f32⟩
  | .hbm, ⟨8, _⟩ => ⟨S256x64, .f32⟩
  | .hbm, ⟨9, _⟩ => ⟨S256, .f32⟩
  | .hbm, ⟨10, _⟩ => ⟨S256, .f32⟩
  | .hbm, ⟨11, _⟩ => ⟨S64x64, .f32⟩
  | .hbm, ⟨12, _⟩ => ⟨S64, .f32⟩
  | .hbm, ⟨13, _⟩ => ⟨S100000x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S64x192, .f32⟩
  | .hbm, ⟨44, _⟩ => ⟨S100000x192, .f32⟩
  | .hbm, ⟨45, _⟩ => ⟨S1x192, .f32⟩
  | .hbm, ⟨46, _⟩ => ⟨S100000x192, .f32⟩
  | .hbm, ⟨47, _⟩ => ⟨S100000x192, .f32⟩
  | .hbm, ⟨48, _⟩ => ⟨S64x192, .f32⟩
  | .hbm, ⟨49, _⟩ => ⟨S100000x192, .f32⟩
  | .hbm, ⟨50, _⟩ => ⟨S1x192, .f32⟩
  | .hbm, ⟨51, _⟩ => ⟨S100000x192, .f32⟩
  | .hbm, ⟨52, _⟩ => ⟨S100000x192, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S64x256, .f32⟩
  | .hbm, ⟨87, _⟩ => ⟨S100000x256, .f32⟩
  | .hbm, ⟨88, _⟩ => ⟨S1x256, .f32⟩
  | .hbm, ⟨89, _⟩ => ⟨S100000x256, .f32⟩
  | .hbm, ⟨90, _⟩ => ⟨S100000x256, .f32⟩
  | .hbm, ⟨91, _⟩ => ⟨S1x256, .f32⟩
  | .hbm, ⟨92, _⟩ => ⟨S100000x256, .f32⟩
  | .hbm, ⟨93, _⟩ => ⟨S100000x256, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S_, .f32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S_, .f32⟩
  | .hbm, ⟨119, _⟩ => ⟨S100000x64, .f32⟩
  | .hbm, ⟨120, _⟩ => ⟨S100000x64, .f32⟩
  | .hbm, ⟨121, _⟩ => ⟨S64x64, .f32⟩
  | .hbm, ⟨122, _⟩ => ⟨S100000x64, .f32⟩
  | .hbm, ⟨123, _⟩ => ⟨S1x64, .f32⟩
  | .hbm, ⟨124, _⟩ => ⟨S100000x64, .f32⟩
  | .hbm, ⟨125, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_11 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call0_cst : Ref sig .tc := ⟨.hbm, 118, rfl⟩
abbrev main_call0_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  transposes_S256x64_S64x256_1_0 : S256x64.Transposes [1, 0] S64x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x192_S100000x192_1_0_0_1_n_n_wf : DotDims.WF S100000x64 S64x192 S100000x192 [1] [0] [0] [1] [] []
  dot_S100000x64_S64x256_S100000x256_1_0_0_1_n_n_wf : DotDims.WF S100000x64 S64x256 S100000x256 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf

class Facts : Prop extends Facts₀ where

variable [Facts]
-- ==== Proof.RowSpec.lean ====
/-
  One output row of the gated graph layer, as a function of that row of the node features and of the aggregated
  messages, over the extended reals.

  For a node with feature row x and aggregated-message row a (both of length 64):
    gi = a · Wi + bi,  gh = x · Wh + bh                      (two linear layers into 192 = 3 × 64 columns)
    r  = σ(gi₀ + gh₀),  z = σ(gi₁ + gh₁),  n = tanh(gi₂ + r * gh₂)   (the three 64-column thirds)
    h  = (1 - z) * n + z * x                                  (the gated recurrent cell)
    g  = h · Wl + b₁ + b₂                                     (one linear layer into 256 = 4 × 64 columns)
    c  = σ(g₀) * tanh(g₂),  h' = σ(g₃) * tanh(c)               (one step of the long short-term cell from a zero state)
    out = max(h', 0) · Wo + bo                                (rectifier, then the output layer)
  where σ(t) = 1 / (1 + exp(-t)).  Every weight matrix is given here with its 64 rows indexed by the contracted
  coordinate.  The whole function reads x and a only through the one row, which is why computing it on blocks of rows
  agrees with computing it on all rows at once.
-/
import Idealize.ShloMosaic.PureOps.Ideal
import Idealize.ShloMosaic.PureOps.Ideal.Laws
import Idealize.ShloMosaic.Lib.IdealHost

noncomputable section

namespace Cert.RowSpec

open Idealize.ShloMosaic

/-- The float word of 1.0, read at the ideal values. -/
abbrev one : EReal := Ideal.ofBits .f32 0x3F800000#32
/-- The float word of 0.0, read at the ideal values. -/
abbrev zero : EReal := Ideal.ofBits .f32 0x00000000#32

/-- The logistic function spelt as quotient, sum, exponential and negation. -/
def sig (t : EReal) : EReal := Ideal.div one (one + Ideal.exp (-t))

/-- The one-operation logistic is the spelt-out one: the word of 1.0 is the number 1. -/
theorem logistic_eq_sig (t : EReal) : Ideal.logistic t = sig t := by
  unfold sig Ideal.logistic one
  rw [Ideal.ofBits_one_f32]

/-- One entry of a linear layer: the row times column j of the weights, plus the bias at j. -/
def lin {N : ℕ} (x : Fin 64 → EReal) (w : Fin 64 → Fin N → EReal) (b : Fin N → EReal) (j : Fin N) : EReal :=
  (∑ k : Fin 64, x k * w k j) + b j

/-- Column c of the first, second and third 64-column third of 192 columns. -/
def t0 (c : Fin 64) : Fin 192 := ⟨c.val, by have := c.isLt; omega⟩
def t1 (c : Fin 64) : Fin 192 := ⟨64 + c.val, by have := c.isLt; omega⟩
def t2 (c : Fin 64) : Fin 192 := ⟨128 + c.val, by have := c.isLt; omega⟩
/-- Column c of the first, third and fourth 64-column quarter of 256 columns. -/
def q0 (c : Fin 64) : Fin 256 := ⟨c.val, by have := c.isLt; omega⟩
def q2 (c : Fin 64) : Fin 256 := ⟨128 + c.val, by have := c.isLt; omega⟩
def q3 (c : Fin 64) : Fin 256 := ⟨192 + c.val, by have := c.isLt; omega⟩

/-- The gated recurrent cell's new state at column c, from the input-side and hidden-side layer entries. -/
def gruOf (gi gh : Fin 192 → EReal) (x : Fin 64 → EReal) (c : Fin 64) : EReal :=
  (one - sig (gi (t1 c) + gh (t1 c))) * Ideal.tanh (gi (t2 c) + sig (gi (t0 c) + gh (t0 c)) * gh (t2 c))
    + sig (gi (t1 c) + gh (t1 c)) * x c

/-- The gated recurrent cell on a row. -/
def gruRow (x a : Fin 64 → EReal) (wi wh : Fin 64 → Fin 192 → EReal) (bi bh : Fin 192 → EReal) (c : Fin 64) : EReal :=
  gruOf (lin a wi bi) (lin x wh bh) x c

/-- The long short-term cell's output at column c from its four gates' pre-activations. -/
def lstmOf (g : Fin 256 → EReal) (c : Fin 64) : EReal :=
  sig (g (q3 c)) * Ideal.tanh (sig (g (q0 c)) * Ideal.tanh (g (q2 c)))

/-- The long short-term cell on a row: one linear layer with two biases, then the gates. -/
def lstmRow (h : Fin 64 → EReal) (w : Fin 64 → Fin 256 → EReal) (b1 b2 : Fin 256 → EReal) (c : Fin 64) : EReal :=
  lstmOf (fun j => lin h w b1 j + b2 j) c

/-- The rectified row through the output layer. -/
def outRow (h : Fin 64 → EReal) (w : Fin 64 → Fin 64 → EReal) (b : Fin 64 → EReal) (c : Fin 64) : EReal :=
  lin (fun k => max (h k) zero) w b c

/-- The whole row function. -/
def rowOut (x a : Fin 64 → EReal) (wi wh : Fin 64 → Fin 192 → EReal) (bi bh : Fin 192 → EReal)
    (wl : Fin 64 → Fin 256 → EReal) (b1 b2 : Fin 256 → EReal) (wo : Fin 64 → Fin 64 → EReal) (bo : Fin 64 → EReal) (c : Fin 64) : EReal :=
  outRow (lstmRow (gruRow x a wi wh bi bh) wl b1 b2) wo bo c

end Cert.RowSpec

end
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.FusedRow.lean ====
/-
  The second kernel's body, read one entry at a time.

  The body takes a block of 2000 rows of the node features and of the aggregated messages, together with all the
  weights and biases, and stores one 2000 × 64 block.  Entry (p, c) of what it stores is the row function of
  Proof/RowSpec.lean at row p of the two row blocks, column c: every operation of the body is either pointwise, a
  cut of 64 columns, a bias row repeated down the rows, or a matrix product of a row block with a resident weight
  matrix, and a product's entry (p, j) reads only row p of its left operand.  A change of float format is the
  identity at the ideal values, and the one-operation logistic is the spelt-out one.
-/
import proofs.«172775_j80719615361185_1_alg».proof.Proof.Gen.KernelIdeal.Skeleton
import proofs.«172775_j80719615361185_1_alg».proof.Proof.RowSpec
import proofs.«172775_j80719615361185_1_alg».proof.Proof.LibPlainDot
import Idealize.ShloMosaic.Lib.ValueIdx
import Idealize.ShloMosaic.Lib.ValueLayout
import Idealize.ShloMosaic.Lib.Pipeline.Value

noncomputable section

namespace Cert.KernelIdeal.FusedRow

open Idealize.ShloMosaic Idealize.ShloMosaic.ValueIdx Cert.KernelIdeal Cert.KernelIdeal.Gen Cert.RowSpec Cert.LibPlainDot

/-- The matrix unit from a zero accumulator plus a one-row bias repeated down the rows, at entry (p, q): the linear
    layer's entry on row p. -/
theorem matmul_biasrow_at {φ₁ φ₂ : FTy} (M N : ℕ) (d : DotDims ⟨2, ![M, 64]⟩ ⟨2, ![64, N]⟩ ⟨2, ![M, N]⟩) (hd : d = DotDims.plain M 64 N)
    (l : FVec Ideal ⟨2, ![M, 64]⟩ φ₁) (r : FVec Ideal ⟨2, ![64, N]⟩ φ₂) (b : FVec Ideal ⟨2, ![1, N]⟩ .f32)
    (h : (⟨2, ![1, N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = lin (fun k => l (ix2 p k)) (fun k j => r (ix2 k j)) (fun j => b (ix2 (0 : Fin 1) j)) q := by
  subst hd
  rw [addf_apply, broadcastTo_1b_ab_apply, shapeCast_self]
  exact congrArg (· + b (ix2 (0 : Fin 1) q)) (plain_matmul M 64 N l r p q)

/-! ## The gated recurrent cell -/

/-- The input-side layer of the cell on a block: aggregated rows times the weights, plus the bias row. -/
def giV (a : Vec Ideal S2000x64 .f32) (w : Vec Ideal S64x192 .f32) (b : Vec Ideal S1x192 .f32) : FVec Ideal S2000x192 .f32 :=
  addf (matmul dot_S2000x64_S64x192_S2000x192_1_0_0_1_n_n none
      (truncf .bf16 (shapeCast S2000x64 a shapeCasts_S2000x64_S2000x64) bitsLt_bf16_f32)
      (truncf .bf16 (shapeCast S64x192 w shapeCasts_S64x192_S64x192) bitsLt_bf16_f32)
      (constant S2000x192 .f32 0x00000000#32))
    (broadcastTo S2000x192 (shapeCast S1x192 b shapeCasts_S1x192_S1x192) broadcasts_S1x192_S2000x192)

/-- The hidden-side layer of the cell on a block: feature rows times the weights, plus the bias row. -/
def ghV (x : Vec Ideal S2000x64 .f32) (w : Vec Ideal S64x192 .f32) (b : Vec Ideal S1x192 .f32) : FVec Ideal S2000x192 .f32 :=
  addf (matmul dot_S2000x64_S64x192_S2000x192_1_0_0_1_n_n none
      (truncf .bf16 x bitsLt_bf16_f32)
      (truncf .bf16 (shapeCast S64x192 w shapeCasts_S64x192_S64x192) bitsLt_bf16_f32)
      (constant S2000x192 .f32 0x00000000#32))
    (broadcastTo S2000x192 (shapeCast S1x192 b shapeCasts_S1x192_S1x192) broadcasts_S1x192_S2000x192)

/-- The three 64-column thirds of a 192-column block. -/
def th0 (g : FVec Ideal S2000x192 .f32) : FVec Ideal S2000x64 .f32 := extractStridedSlice S2000x64 ![0, 0] g slices_S2000x192_o0_0_S2000x64
def th1 (g : FVec Ideal S2000x192 .f32) : FVec Ideal S2000x64 .f32 := extractStridedSlice S2000x64 ![0, 64] g slices_S2000x192_o0_64_S2000x64
def th2 (g : FVec Ideal S2000x192 .f32) : FVec Ideal S2000x64 .f32 := extractStridedSlice S2000x64 ![0, 128] g slices_S2000x192_o0_128_S2000x64

/-- The cell's gates and new state on a block, from the two layers' blocks. -/
def gruV (gi gh : FVec Ideal S2000x192 .f32) (x : Vec Ideal S2000x64 .f32) : FVec Ideal S2000x64 .bf16 :=
  truncf .bf16
    (addf (mulf (subf (broadcast S2000x64 (Scalar.ofBits .f32 0x3F800000#32)) (logistic (addf (th1 gi) (th1 gh))))
                (tanh (addf (th2 gi) (mulf (logistic (addf (th0 gi) (th0 gh))) (th2 gh)))))
          (mulf (logistic (addf (th1 gi) (th1 gh))) x))
    bitsLt_bf16_f32

/-- The body's first payload is the cell on the block. -/
theorem pay2_eq (x0 x1 : Vec Ideal S2000x64 .f32) (x2 x3 : Vec Ideal S64x192 .f32) (x4 x5 : Vec Ideal S1x192 .f32) :
    k1_pay2 x0 x1 x2 x3 x4 x5 = gruV (giV x1 x2 x4) (ghV x0 x3 x5) x0 := rfl

theorem th0_at (g : FVec Ideal S2000x192 .f32) (p : Fin 2000) (c : Fin 64) : th0 g (ix2 p c) = g (ix2 p (t0 c)) :=
  slice2_axis1_apply 0 g _ p c (t0 c) (by show c.val = 0 + c.val; omega)
theorem th1_at (g : FVec Ideal S2000x192 .f32) (p : Fin 2000) (c : Fin 64) : th1 g (ix2 p c) = g (ix2 p (t1 c)) :=
  slice2_axis1_apply 64 g _ p c (t1 c) rfl
theorem th2_at (g : FVec Ideal S2000x192 .f32) (p : Fin 2000) (c : Fin 64) : th2 g (ix2 p c) = g (ix2 p (t2 c)) :=
  slice2_axis1_apply 128 g _ p c (t2 c) rfl

/-- The cell at entry (p, c), from row p of the two layers' blocks and of the feature block. -/
theorem gruV_at (gi gh : FVec Ideal S2000x192 .f32) (x : Vec Ideal S2000x64 .f32) (p : Fin 2000) (c : Fin 64) :
    gruV gi gh x (ix2 p c) = gruOf (fun j => gi (ix2 p j)) (fun j => gh (ix2 p j)) (fun k => x (ix2 p k)) c := by
  show (Ideal.ofBits .f32 0x3F800000#32 - Ideal.logistic (th1 gi (ix2 p c) + th1 gh (ix2 p c)))
        * Ideal.tanh (th2 gi (ix2 p c) + Ideal.logistic (th0 gi (ix2 p c) + th0 gh (ix2 p c)) * th2 gh (ix2 p c))
      + Ideal.logistic (th1 gi (ix2 p c) + th1 gh (ix2 p c)) * x (ix2 p c) = _
  rw [th0_at, th0_at, th1_at, th1_at, th2_at, th2_at, logistic_eq_sig, logistic_eq_sig]
  rfl

theorem giV_at (a : Vec Ideal S2000x64 .f32) (w : Vec Ideal S64x192 .f32) (b : Vec Ideal S1x192 .f32) (p : Fin 2000) (j : Fin 192) :
    giV a w b (ix2 p j) = lin (fun k => a (ix2 p k)) (fun k j => w (ix2 k j)) (fun j => b (ix2 (0 : Fin 1) j)) j := by
  unfold giV
  rw [shapeCast_self a, shapeCast_self w]
  exact matmul_biasrow_at 2000 192 _ rfl _ _ b _ _ p j

theorem ghV_at (x : Vec Ideal S2000x64 .f32) (w : Vec Ideal S64x192 .f32) (b : Vec Ideal S1x192 .f32) (p : Fin 2000) (j : Fin 192) :
    ghV x w b (ix2 p j) = lin (fun k => x (ix2 p k)) (fun k j => w (ix2 k j)) (fun j => b (ix2 (0 : Fin 1) j)) j := by
  unfold ghV
  rw [shapeCast_self w]
  exact matmul_biasrow_at 2000 192 _ rfl _ _ b _ _ p j

/-- THE FIRST PAYLOAD at entry (p, c): the gated recurrent cell on row p. -/
theorem pay2_at (x0 x1 : Vec Ideal S2000x64 .f32) (x2 x3 : Vec Ideal S64x192 .f32) (x4 x5 : Vec Ideal S1x192 .f32) (p : Fin 2000) (c : Fin 64) :
    k1_pay2 x0 x1 x2 x3 x4 x5 (ix2 p c)
      = gruRow (fun k => x0 (ix2 p k)) (fun k => x1 (ix2 p k)) (fun k j => x2 (ix2 k j)) (fun k j => x3 (ix2 k j))
          (fun j => x4 (ix2 (0 : Fin 1) j)) (fun j => x5 (ix2 (0 : Fin 1) j)) c := by
  rw [pay2_eq, gruV_at]
  unfold gruRow
  exact congrArg₂ (fun gi gh => gruOf gi gh (fun k => x0 (ix2 p k)) c) (funext fun j => giV_at x1 x2 x4 p j) (funext fun j => ghV_at x0 x3 x5 p j)

/-! ## The long short-term cell and the output layer -/

/-- A one-row bias repeated down the rows reads the row's entry. -/
theorem biasrow_at {α : Type} {M N : ℕ} (b : (⟨2, ![1, N]⟩ : Shape).Idx → α) (h : (⟨2, ![1, N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix2 (0 : Fin 1) q) := by
  rw [broadcastTo_1b_ab_apply, shapeCast_self]

/-- The four gates' pre-activations on a block: the cell's rows times the weights, plus the two bias rows. -/
def gatesV (h : FVec Ideal S2000x64 .bf16) (w : FVec Ideal S64x256 .f32) (b1 b2 : Vec Ideal S1x256 .f32) : FVec Ideal S2000x256 .f32 :=
  addf (addf (matmul dot_S2000x64_S64x256_S2000x256_1_0_0_1_n_n none h (truncf .bf16 w bitsLt_bf16_f32) (constant S2000x256 .f32 0x00000000#32))
      (broadcastTo S2000x256 (shapeCast S1x256 b1 shapeCasts_S1x256_S1x256) broadcasts_S1x256_S2000x256))
    (broadcastTo S2000x256 (shapeCast S1x256 b2 shapeCasts_S1x256_S1x256) broadcasts_S1x256_S2000x256)

/-- The first, third and fourth 64-column quarters of a 256-column block. -/
def qu0 (g : FVec Ideal S2000x256 .f32) : FVec Ideal S2000x64 .f32 := extractStridedSlice S2000x64 ![0, 0] g slices_S2000x256_o0_0_S2000x64
def qu2 (g : FVec Ideal S2000x256 .f32) : FVec Ideal S2000x64 .f32 := extractStridedSlice S2000x64 ![0, 128] g slices_S2000x256_o0_128_S2000x64
def qu3 (g : FVec Ideal S2000x256 .f32) : FVec Ideal S2000x64 .f32 := extractStridedSlice S2000x64 ![0, 192] g slices_S2000x256_o0_192_S2000x64

/-- The cell's output on a block from the gates' block. -/
def lstmV (g : FVec Ideal S2000x256 .f32) : FVec Ideal S2000x64 .f32 :=
  mulf (logistic (qu3 g)) (tanh (mulf (logistic (qu0 g)) (tanh (qu2 g))))

/-- The rectifier and the output layer on a block. -/
def outV (h : FVec Ideal S2000x64 .f32) (w : Vec Ideal S64x64 .f32) (b : Vec Ideal S1x64 .f32) : FVec Ideal S2000x64 .f32 :=
  addf (matmul dot_S2000x64_S64x64_S2000x64_1_0_0_1_n_n none
      (truncf .bf16 (maximumf h (broadcast S2000x64 (Scalar.ofBits .f32 0x00000000#32))) bitsLt_bf16_f32)
      (truncf .bf16 (shapeCast S64x64 w shapeCasts_S64x64_S64x64) bitsLt_bf16_f32)
      (constant S2000x64 .f32 0x00000000#32))
    (broadcastTo S2000x64 (shapeCast S1x64 b shapeCasts_S1x64_S1x64) broadcasts_S1x64_S2000x64)

/-- The body's stored payload is the output layer of the cell of the gates. -/
theorem pay1_eq (v39 : FVec Ideal S2000x64 .bf16) (v41 : FVec Ideal S64x256 .f32) (v44 v48 : Vec Ideal S1x256 .f32)
    (v64 : Vec Ideal S64x64 .f32) (v68 : Vec Ideal S1x64 .f32) :
    k1_pay1 v39 v41 v44 v48 v64 v68 = outV (lstmV (gatesV v39 v41 v44 v48)) v64 v68 := rfl

/-- The weights of the gates pass through a change of shape that changes nothing. -/
theorem pay3_eq (v40 : Vec Ideal S64x256 .f32) : k1_pay3 v40 = v40 := shapeCast_self v40 _

theorem qu0_at (g : FVec Ideal S2000x256 .f32) (p : Fin 2000) (c : Fin 64) : qu0 g (ix2 p c) = g (ix2 p (q0 c)) :=
  slice2_axis1_apply 0 g _ p c (q0 c) (by show c.val = 0 + c.val; omega)
theorem qu2_at (g : FVec Ideal S2000x256 .f32) (p : Fin 2000) (c : Fin 64) : qu2 g (ix2 p c) = g (ix2 p (q2 c)) :=
  slice2_axis1_apply 128 g _ p c (q2 c) rfl
theorem qu3_at (g : FVec Ideal S2000x256 .f32) (p : Fin 2000) (c : Fin 64) : qu3 g (ix2 p c) = g (ix2 p (q3 c)) :=
  slice2_axis1_apply 192 g _ p c (q3 c) rfl

theorem gatesV_at (h : FVec Ideal S2000x64 .bf16) (w : FVec Ideal S64x256 .f32) (b1 b2 : Vec Ideal S1x256 .f32) (p : Fin 2000) (j : Fin 256) :
    gatesV h w b1 b2 (ix2 p j)
      = lin (fun k => h (ix2 p k)) (fun k j => w (ix2 k j)) (fun j => b1 (ix2 (0 : Fin 1) j)) j + b2 (ix2 (0 : Fin 1) j) := by
  unfold gatesV
  rw [addf_apply]
  exact congrArg₂ (· + ·) (matmul_biasrow_at 2000 256 _ rfl _ _ b1 _ _ p j) (biasrow_at b2 _ _ p j)

theorem lstmV_at (g : FVec Ideal S2000x256 .f32) (p : Fin 2000) (c : Fin 64) :
    lstmV g (ix2 p c) = lstmOf (fun j => g (ix2 p j)) c := by
  show Ideal.logistic (qu3 g (ix2 p c)) * Ideal.tanh (Ideal.logistic (qu0 g (ix2 p c)) * Ideal.tanh (qu2 g (ix2 p c))) = _
  rw [qu0_at, qu2_at, qu3_at, logistic_eq_sig, logistic_eq_sig]
  rfl

theorem outV_at (h : FVec Ideal S2000x64 .f32) (w : Vec Ideal S64x64 .f32) (b : Vec Ideal S1x64 .f32) (p : Fin 2000) (c : Fin 64) :
    outV h w b (ix2 p c) = outRow (fun k => h (ix2 p k)) (fun k j => w (ix2 k j)) (fun j => b (ix2 (0 : Fin 1) j)) c := by
  unfold outV
  rw [shapeCast_self w]
  exact matmul_biasrow_at 2000 64 _ rfl _ _ b _ _ p c

/-- THE STORED PAYLOAD at entry (p, c): the cell and the output layer on row p of the first payload. -/
theorem pay1_at (v39 : FVec Ideal S2000x64 .bf16) (v41 : FVec Ideal S64x256 .f32) (v44 v48 : Vec Ideal S1x256 .f32)
    (v64 : Vec Ideal S64x64 .f32) (v68 : Vec Ideal S1x64 .f32) (p : Fin 2000) (c : Fin 64) :
    k1_pay1 v39 v41 v44 v48 v64 v68 (ix2 p c)
      = outRow (lstmRow (fun k => v39 (ix2 p k)) (fun k j => v41 (ix2 k j)) (fun j => v44 (ix2 (0 : Fin 1) j)) (fun j => v48 (ix2 (0 : Fin 1) j)))
          (fun k j => v64 (ix2 k j)) (fun j => v68 (ix2 (0 : Fin 1) j)) c := by
  rw [pay1_eq, outV_at]
  refine congrArg (fun h => outRow h (fun k j => v64 (ix2 k j)) (fun j => v68 (ix2 (0 : Fin 1) j)) c) (funext fun k => ?_)
  rw [lstmV_at]
  unfold lstmRow
  exact congrArg (fun g => lstmOf g k) (funext fun j => gatesV_at v39 v41 v44 v48 p j)

/-- THE BODY at entry (p, c): the whole row function on row p of the feature block and of the message block. -/
theorem body_at (x0 x1 : Vec Ideal S2000x64 .f32) (x2 x3 : Vec Ideal S64x192 .f32) (x4 x5 : Vec Ideal S1x192 .f32)
    (x6 : Vec Ideal S64x256 .f32) (x7 x8 : Vec Ideal S1x256 .f32) (x9 : Vec Ideal S64x64 .f32) (x10 : Vec Ideal S1x64 .f32)
    (p : Fin 2000) (c : Fin 64) :
    k1_pay1 (k1_pay2 x0 x1 x2 x3 x4 x5) (k1_pay3 x6) x7 x8 x9 x10 (ix2 p c)
      = rowOut (fun k => x0 (ix2 p k)) (fun k => x1 (ix2 p k)) (fun k j => x2 (ix2 k j)) (fun k j => x3 (ix2 k j))
          (fun j => x4 (ix2 (0 : Fin 1) j)) (fun j => x5 (ix2 (0 : Fin 1) j)) (fun k j => x6 (ix2 k j))
          (fun j => x7 (ix2 (0 : Fin 1) j)) (fun j => x8 (ix2 (0 : Fin 1) j)) (fun k j => x9 (ix2 k j)) (fun j => x10 (ix2 (0 : Fin 1) j)) c := by
  rw [pay1_at, pay3_eq]
  unfold rowOut
  exact congrArg (fun h => outRow (lstmRow h (fun k j => x6 (ix2 k j)) (fun j => x7 (ix2 (0 : Fin 1) j)) (fun j => x8 (ix2 (0 : Fin 1) j)))
      (fun k j => x9 (ix2 k j)) (fun j => x10 (ix2 (0 : Fin 1) j)) c) (funext fun k => pay2_at x0 x1 x2 x3 x4 x5 p k)

end Cert.KernelIdeal.FusedRow

end
-- ==== Proof.BlockRows.lean ====
/-
  From blocks of rows to whole arrays: what each of the two kernels leaves in its output array.

  Both kernels walk the 100000 rows in blocks (10000 rows per grid point for the first, 2000 for the second); the
  block of a row-indexed operand at a point holds the rows of that point, a resident weight or bias is the same whole
  array at every point, and the output block of the point is written back to those rows.  Since entry (r, c) of
  either result reads the row-indexed operands only through row r, the block written at a point is a block of ONE
  function of the whole arrays:
    first kernel   (r, c) ↦ Σ_k x(r, k) * W(k, c)
    second kernel  (r, c) ↦ the row function of Proof/RowSpec.lean at rows r of x and of the aggregated messages.
  Every row lies in the block of the point r / (rows per block), so the output array ends holding that function.
  The arrays are those the region finds on entry, whatever they are.
-/
import proofs.«172775_j80719615361185_1_alg».proof.Proof.Gen.KernelIdeal.Frame
import proofs.«172775_j80719615361185_1_alg».proof.Proof.FusedRow

set_option maxRecDepth 16384

noncomputable section

namespace Cert.KernelIdeal.BlockRows

open Idealize.ShloMosaic Idealize.ShloMosaic.TcCoe Idealize.ShloMosaic.ValueIdx Idealize.SL.Sem
open Cert.KernelIdeal Cert.KernelIdeal.Gen Cert.RowSpec Cert.LibPlainDot Cert.KernelIdeal.FusedRow

/-- The row and the column of an entry of a 100000 × 64 array. -/
def row (i : S100000x64.Idx) : Fin 100000 := ⟨(i 0).val, (i 0).isLt⟩
def col (i : S100000x64.Idx) : Fin 64 := ⟨(i 1).val, (i 1).isLt⟩

theorem hz : (![0, 0] : Fin 2 → Nat) = fun _ => 0 := funext fun a => by fin_cases a <;> rfl

/-- The row function depends on its eleven operands and the column only through their values. -/
theorem rowOut_congr {x x' a a' : Fin 64 → EReal} {wi wi' wh wh' : Fin 64 → Fin 192 → EReal} {bi bi' bh bh' : Fin 192 → EReal}
    {wl wl' : Fin 64 → Fin 256 → EReal} {b1 b1' b2 b2' : Fin 256 → EReal} {wo wo' : Fin 64 → Fin 64 → EReal} {bo bo' : Fin 64 → EReal}
    {c c' : Fin 64} (hx : x = x') (ha : a = a') (hwi : wi = wi') (hwh : wh = wh') (hbi : bi = bi') (hbh : bh = bh')
    (hwl : wl = wl') (hb1 : b1 = b1') (hb2 : b2 = b2') (hwo : wo = wo') (hbo : bo = bo') (hc : c = c') :
    rowOut x a wi wh bi bh wl b1 b2 wo bo c = rowOut x' a' wi' wh' bi' bh' wl' b1' b2' wo' bo' c' := by
  subst hx ha hwi hwh hbi hbh hwl hb1 hb2 hwo hbo hc; rfl

variable (V : (c : Dev nD) → (b : Ref sig .tc) → Buf (Elt Ideal) ((c : Thread nD τ).loc b))

/-! ## The second kernel -/

/-- What the second kernel's output array ends holding, as one function of the arrays the region finds. -/
def G1 (x a : S100000x64.Idx → EReal) (wi wh : S64x192.Idx → EReal) (bi bh : S1x192.Idx → EReal) (wl : S64x256.Idx → EReal)
    (b1 b2 : S1x256.Idx → EReal) (wo : S64x64.Idx → EReal) (bo : S1x64.Idx → EReal) : S100000x64.Idx → EReal := fun i =>
  rowOut (fun k => x (ix2 (row i) k)) (fun k => a (ix2 (row i) k)) (fun k j => wi (ix2 k j)) (fun k j => wh (ix2 k j))
    (fun j => bi (ix2 (0 : Fin 1) j)) (fun j => bh (ix2 (0 : Fin 1) j)) (fun k j => wl (ix2 k j))
    (fun j => b1 (ix2 (0 : Fin 1) j)) (fun j => b2 (ix2 (0 : Fin 1) j)) (fun k j => wo (ix2 k j)) (fun j => bo (ix2 (0 : Fin 1) j)) (col i)

/-- The printed index maps, decided over the grid: the two row-indexed inputs move with the output along the rows, and
    every other block index is zero. -/
theorem idx_facts1 : ∀ t : Fin cfg1.N, win1_0.index t (0 : Fin 2) = win1_11.index t (0 : Fin 2) ∧ win1_0.index t (1 : Fin 2) = 0
    ∧ win1_1.index t (0 : Fin 2) = win1_11.index t (0 : Fin 2) ∧ win1_1.index t (1 : Fin 2) = 0
    ∧ win1_11.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- Every block of 2000 rows is some point's. -/
theorem idx_onto1 : ∀ q0 : Fin 50, ∃ t : Fin cfg1.N, win1_11.index t = ![q0.val, 0] :=
  (by decide +kernel : ∀ q0 : Fin 50, ∃ t : Fin grid1.N, win1_11.index t = ![q0.val, 0])

/-- WHAT POINT t WRITES BACK is block t of `G1` of the arrays as the region finds them. -/
theorem flushed1_eq (c : Dev nD) (t : Fin cfg1.N) :
    (dat1 V c).flushed 11 t = ((cfg1.win 11).blk t).view.read (Elt Ideal)
      (G1 (V c main_arg0) (V c main_v23) (V c main_v24) (V c main_v25) (V c main_v26) (V c main_v27) (V c main_v28)
        (V c main_v29) (V c main_v30) (V c main_v31) (V c main_v32)) := by
  show (cfg1.win 11).cut (grid1.coords t) ((dat1 V c).after 11 t) = _
  rw [after1_11]
  unfold out1_11
  rw [View.canon_unit_zero hz]
  simp only [View.ld_unit_zero (S := S2000x64) hz, View.ld_unit_zero (S := S64x192) hz, View.ld_unit_zero (S := S1x192) hz,
    View.ld_unit_zero (S := S64x256) hz, View.ld_unit_zero (S := S1x256) hz, View.ld_unit_zero (S := S64x64) hz,
    View.ld_unit_zero (S := S1x64) hz]
  obtain ⟨e0, e1, e2, e3, e4, f20, f21, f30, f31, f40, f41, f50, f51, f60, f61, f70, f71, f80, f81, f90, f91, f100, f101⟩ := idx_facts1 t
  funext j
  obtain ⟨p, q, rfl⟩ : ∃ (p : Fin 2000) (q : Fin 64), j = ix2 p q := ⟨j 0, j 1, eq_ix2 j⟩
  refine (body_at (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) p q).trans ?_
  show _ = G1 (V c main_arg0) (V c main_v23) (V c main_v24) (V c main_v25) (V c main_v26) (V c main_v27) (V c main_v28)
        (V c main_v29) (V c main_v30) (V c main_v31) (V c main_v32) (((cfg1.win 11).blk t).view.emb (ix2 p q))
  unfold G1
  refine rowOut_congr ?_ ?_ ?_ ?_ ?_ ?_ ?_ ?_ ?_ ?_ ?_ ?_
  · funext k
    show V c main_arg0 (((cfg1.win 0).blk t).view.emb (ix2 p k)) = V c main_arg0 (ix2 (row (((cfg1.win 11).blk t).view.emb (ix2 p q))) k)
    refine congrArg (V c main_arg0) (funext fun a => Fin.ext ?_)
    match a with
    | ⟨0, _⟩ => show win1_0.index t (0 : Fin 2) * 2000 + 1 * p.val = win1_11.index t (0 : Fin 2) * 2000 + 1 * p.val; omega
    | ⟨1, _⟩ => show win1_0.index t (1 : Fin 2) * 64 + 1 * k.val = k.val; omega
  · funext k
    show V c main_v23 (((cfg1.win 1).blk t).view.emb (ix2 p k)) = V c main_v23 (ix2 (row (((cfg1.win 11).blk t).view.emb (ix2 p q))) k)
    refine congrArg (V c main_v23) (funext fun a => Fin.ext ?_)
    match a with
    | ⟨0, _⟩ => show win1_1.index t (0 : Fin 2) * 2000 + 1 * p.val = win1_11.index t (0 : Fin 2) * 2000 + 1 * p.val; omega
    | ⟨1, _⟩ => show win1_1.index t (1 : Fin 2) * 64 + 1 * k.val = k.val; omega
  · funext k j
    show V c main_v24 (((cfg1.win 2).blk t).view.emb (ix2 k j)) = V c main_v24 (ix2 k j)
    refine congrArg (V c main_v24) (funext fun a => Fin.ext ?_)
    match a with
    | ⟨0, _⟩ => show win1_2.index t (0 : Fin 2) * 64 + 1 * k.val = k.val; omega
    | ⟨1, _⟩ => show win1_2.index t (1 : Fin 2) * 192 + 1 * j.val = j.val; omega
  · funext k j
    show V c main_v25 (((cfg1.win 3).blk t).view.emb (ix2 k j)) = V c main_v25 (ix2 k j)
    refine congrArg (V c main_v25) (funext fun a => Fin.ext ?_)
    match a with
    | ⟨0, _⟩ => show win1_3.index t (0 : Fin 2) * 64 + 1 * k.val = k.val; omega
    | ⟨1, _⟩ => show win1_3.index t (1 : Fin 2) * 192 + 1 * j.val = j.val; omega
  · funext j
    show V c main_v26 (((cfg1.win 4).blk t).view.emb (ix2 (0 : Fin 1) j)) = V c main_v26 (ix2 (0 : Fin 1) j)
    refine congrArg (V c main_v26) (funext fun a => Fin.ext ?_)
    match a with
    | ⟨0, _⟩ => show win1_4.index t (0 : Fin 2) * 1 + 1 * 0 = 0; omega
    | ⟨1, _⟩ => show win1_4.index t (1 : Fin 2) * 192 + 1 * j.val = j.val; omega
  · funext j
    show V c main_v27 (((cfg1.win 5).blk t).view.emb (ix2 (0 : Fin 1) j)) = V c main_v27 (ix2 (0 : Fin 1) j)
    refine congrArg (V c main_v27) (funext fun a => Fin.ext ?_)
    match a with
    | ⟨0, _⟩ => show win1_5.index t (0 : Fin 2) * 1 + 1 * 0 = 0; omega
    | ⟨1, _⟩ => show win1_5.index t (1 : Fin 2) * 192 + 1 * j.val = j.val; omega
  · funext k j
    show V c main_v28 (((cfg1.win 6).blk t).view.emb (ix2 k j)) = V c main_v28 (ix2 k j)
    refine congrArg (V c main_v28) (funext fun a => Fin.ext ?_)
    match a with
    | ⟨0, _⟩ => show win1_6.index t (0 : Fin 2) * 64 + 1 * k.val = k.val; omega
    | ⟨1, _⟩ => show win1_6.index t (1 : Fin 2) * 256 + 1 * j.val = j.val; omega
  · funext j
    show V c main_v29 (((cfg1.win 7).blk t).view.emb (ix2 (0 : Fin 1) j)) = V c main_v29 (ix2 (0 : Fin 1) j)
    refine congrArg (V c main_v29) (funext fun a => Fin.ext ?_)
    match a with
    | ⟨0, _⟩ => show win1_7.index t (0 : Fin 2) * 1 + 1 * 0 = 0; omega
    | ⟨1, _⟩ => show win1_7.index t (1 : Fin 2) * 256 + 1 * j.val = j.val; omega
  · funext j
    show V c main_v30 (((cfg1.win 8).blk t).view.emb (ix2 (0 : Fin 1) j)) = V c main_v30 (ix2 (0 : Fin 1) j)
    refine congrArg (V c main_v30) (funext fun a => Fin.ext ?_)
    match a with
    | ⟨0, _⟩ => show win1_8.index t (0 : Fin 2) * 1 + 1 * 0 = 0; omega
    | ⟨1, _⟩ => show win1_8.index t (1 : Fin 2) * 256 + 1 * j.val = j.val; omega
  · funext k j
    show V c main_v31 (((cfg1.win 9).blk t).view.emb (ix2 k j)) = V c main_v31 (ix2 k j)
    refine congrArg (V c main_v31) (funext fun a => Fin.ext ?_)
    match a with
    | ⟨0, _⟩ => show win1_9.index t (0 : Fin 2) * 64 + 1 * k.val = k.val; omega
    | ⟨1, _⟩ => show win1_9.index t (1 : Fin 2) * 64 + 1 * j.val = j.val; omega
  · funext j
    show V c main_v32 (((cfg1.win 10).blk t).view.emb (ix2 (0 : Fin 1) j)) = V c main_v32 (ix2 (0 : Fin 1) j)
    refine congrArg (V c main_v32) (funext fun a => Fin.ext ?_)
    match a with
    | ⟨0, _⟩ => show win1_10.index t (0 : Fin 2) * 1 + 1 * 0 = 0; omega
    | ⟨1, _⟩ => show win1_10.index t (1 : Fin 2) * 64 + 1 * j.val = j.val; omega
  · exact Fin.ext (by show q.val = win1_11.index t (1 : Fin 2) * 64 + 1 * q.val; omega)

/-- An index of the array is in point t's block iff each coordinate is in the block's range on its axis. -/
theorem mem_blk1 (t : Fin cfg1.N) (i : S100000x64.Idx) :
    i ∈ ((cfg1.win 11).blk t).view.set ↔ ∀ a : Fin 2, win1_11.index t a * S2000x64.size a ≤ (i a).val ∧ (i a).val < win1_11.index t a * S2000x64.size a + S2000x64.size a := by
  show i ∈ ((View.whole main_v33).slice (win1_11.rect t)).set ↔ _
  rw [View.set_slice_whole, Rect.mem_set_unit]
  exact Iff.rfl

/-- Every entry of the array is in the block of the point its row falls in. -/
theorem cover1 (i : S100000x64.Idx) : ∃ t : Fin cfg1.N, (cfg1.win 11).flush t = true ∧ i ∈ ((cfg1.win 11).blk t).view.set := by
  have hi0 : (i 0).val < 100000 := (i 0).isLt
  have hi1 : (i 1).val < 64 := (i 1).isLt
  obtain ⟨t, ht⟩ := idx_onto1 ⟨(i 0).val / 2000, by omega⟩
  have q0 : win1_11.index t (0 : Fin 2) = (i 0).val / 2000 := congrFun ht 0
  have q1 : win1_11.index t (1 : Fin 2) = 0 := congrFun ht 1
  refine ⟨t, flush1_11 t, ?_⟩
  rw [mem_blk1]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 64 ≤ (i 1).val ∧ (i 1).val < win1_11.index t (1 : Fin 2) * 64 + 64; omega

/-- THE SECOND KERNEL'S OUTPUT ARRAY after the region: `G1` of the arrays the region finds. -/
theorem final1 (c : Dev nD) : (dat1 V c).arrAt 11 cfg1.N
    = G1 (V c main_arg0) (V c main_v23) (V c main_v24) (V c main_v25) (V c main_v26) (V c main_v27) (V c main_v28)
        (V c main_v29) (V c main_v30) (V c main_v31) (V c main_v32) :=
  (dat1 V c).arrAt_eq_of_cover 11 _ (fun t _ => flushed1_eq V c t) cover1

/-! ## The first kernel -/

/-- The matrix unit from a zero accumulator at entry (p, q). -/
theorem matmul_zero_at {φ₁ φ₂ : FTy} (M N : ℕ) (d : DotDims ⟨2, ![M, 64]⟩ ⟨2, ![64, N]⟩ ⟨2, ![M, N]⟩) (hd : d = DotDims.plain M 64 N)
    (l : FVec Ideal ⟨2, ![M, 64]⟩ φ₁) (r : FVec Ideal ⟨2, ![64, N]⟩ φ₂) (p : Fin M) (q : Fin N) :
    matmul d none l r (constant ⟨2, ![M, N]⟩ .f32 0x00000000#32) (ix2 p q) = ∑ k : Fin 64, l (ix2 p k) * r (ix2 k q) := by
  subst hd; exact plain_matmul M 64 N l r p q

/-- The first kernel's payload at entry (p, q): row p of the feature block times column q of the weights. -/
theorem pay0_at (v0 : Vec Ideal S10000x64 .f32) (v2 : Vec Ideal S64x64 .f32) (p : Fin 10000) (q : Fin 64) :
    k0_pay1 v0 v2 (ix2 p q) = ∑ k : Fin 64, v0 (ix2 p k) * v2 (ix2 k q) := by
  unfold k0_pay1
  exact matmul_zero_at 10000 64 _ rfl _ _ p q

/-- What the first kernel's output array ends holding: the features times the weights, entry by entry. -/
def G0 (x : S100000x64.Idx → EReal) (w : S64x64.Idx → EReal) : S100000x64.Idx → EReal := fun i =>
  ∑ k : Fin 64, x (ix2 (row i) k) * w (ix2 k (col i))

theorem idx_facts0 : ∀ t : Fin cfg0.N, win0_0.index t (0 : Fin 2) = win0_2.index t (0 : Fin 2) ∧ win0_0.index t (1 : Fin 2) = 0
    ∧ win0_2.index t (1 : Fin 2) = 0 ∧ win0_1.index t (0 : Fin 2) = 0 ∧ win0_1.index t (1 : Fin 2) = 0 :=
  (by decide +kernel : ∀ t : Fin grid0.N, _)

theorem idx_onto0 : ∀ q0 : Fin 10, ∃ t : Fin cfg0.N, win0_2.index t = ![q0.val, 0] :=
  (by decide +kernel : ∀ q0 : Fin 10, ∃ t : Fin grid0.N, win0_2.index t = ![q0.val, 0])

/-- WHAT POINT t WRITES BACK is block t of `G0` of the arrays as the region finds them. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4⟩ := idx_facts0 t
  funext j
  obtain ⟨p, q, rfl⟩ : ∃ (p : Fin 10000) (q : Fin 64), j = ix2 p q := ⟨j 0, j 1, eq_ix2 j⟩
  refine (pay0_at (iblk0 V c 0 t) (iblk0 V c 1 t) p q).trans ?_
  show _ = G0 (V c main_arg0) (V c main_arg2) (((cfg0.win 2).blk t).view.emb (ix2 p q))
  unfold G0
  refine Finset.sum_congr rfl fun k _ => ?_
  refine congrArg₂ (· * ·) ?_ ?_
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  · show V c main_arg2 (((cfg0.win 1).blk t).view.emb (ix2 k q)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega

theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE FIRST KERNEL'S OUTPUT ARRAY after the region: `G0` of the arrays the region finds. -/
theorem final0 (c : Dev nD) : (dat0 V c).arrAt 2 cfg0.N = G0 (V c main_arg0) (V c main_arg2) :=
  (dat0 V c).arrAt_eq_of_cover 2 _ (fun t _ => flushed0_eq V c t) cover0

end Cert.KernelIdeal.BlockRows

end
-- ==== Proof.HostMid.lean ====
/-
  The host operations between the two kernels, read as functions of what they are given.

  Between the kernels the program gathers the message rows of every edge's source node, adds them up at the edge's
  destination node, counts the edges arriving at each node, and divides each row sum by the larger of the count and 1:
  the mean aggregation, a function of the message array and of the edge list (`agg`).  It also transposes the four
  weight matrices and gives each of the five bias vectors a leading unit axis.  None of these operations is opened
  here: each result buffer is named as its operations applied to the buffers they read, whatever those hold.
-/
import proofs.«172775_j80719615361185_1_alg».proof.Proof.Gen.KernelIdeal.Launch
import Idealize.ShloMosaic.Lib.StableHlo.Run
import Idealize.ShloMosaic.PureOps.Ideal

set_option maxRecDepth 16384

noncomputable section

namespace Cert.KernelIdeal.HostMid

open Idealize.ShloMosaic Idealize.ShloMosaic.TcCoe Idealize.SL.Sem Idealize.ShloMosaic.StableHlo
open Cert.KernelIdeal Cert.KernelIdeal.Gen

/-- The source node of every edge: row 0 of the edge list. -/
def src (e : IVec S2x1600000 32) : IVec S1600000 32 :=
  shapeCast _ (extractStridedSlice S1x1600000 ![0, 0] e slices_S2x1600000_S1x1600000_0_0) shapeCasts_S1x1600000_S1600000
/-- The destination node of every edge: row 1 of the edge list. -/
def dst (e : IVec S2x1600000 32) : IVec S1600000 32 :=
  shapeCast _ (extractStridedSlice S1x1600000 ![1, 0] e slices_S2x1600000_S1x1600000_1_0) shapeCasts_S1x1600000_S1600000
/-- The source indices with a negative index wrapped around by the number of nodes, one per row. -/
def gatherIdx (e : IVec S2x1600000 32) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))
/-- The destination indices, one per row. -/
def scatterIdx (e : IVec S2x1600000 32) : IVec S1600000x1 32 :=
  broadcastInDim S1600000x1 ![0] bcast_S1600000_S1600000x1_0 (dst e)
/-- The sum, at every node, of the message rows of the edges arriving there. -/
def sums (m0 : FVec Ideal S100000x64 .f32) (e : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (scatterIdx e)
    (Host.gather gather_S100000x64_S1600000x1_S1600000x64_1_0_n_n_0_1_164 m0 (gatherIdx e))
/-- The number of edges arriving at every node, and at least 1, repeated along the row. -/
def denom (e : IVec S2x1600000 32) : FVec Ideal S100000x64 .f32 :=
  broadcastInDim S100000x64 ![0, 1] bcast_S100000x1_S100000x64_0_1
    (broadcastInDim S100000x1 ![0] bcast_S100000_S100000x1_0
      (maximumf
        (Host.scatterAdd scatter_S100000_S1600000x1_S1600000_n_0_0_1
          (broadcastInDim S100000 ![] bcast_S_S100000 (constant (F := Ideal) S_ .f32 0x00000000#32)) (scatterIdx e)
          (broadcastInDim S1600000 ![] bcast_S_S1600000 (constant (F := Ideal) S_ .f32 0x3F800000#32)))
        (broadcastInDim S100000 ![] bcast_S_S100000 (constant (F := Ideal) S_ .f32 0x3F800000#32))))
/-- THE MEAN AGGREGATION of the message rows over the edges arriving at every node. -/
def agg (m0 : FVec Ideal S100000x64 .f32) (e : IVec S2x1600000 32) : FVec Ideal S100000x64 .f32 :=
  Host.divf (F := Ideal) (sums m0 e) (denom e)

variable (W : Valuation τ sig (Elt Ideal))

set_option maxHeartbeats 4000000 in
/-- The aggregated messages the second kernel is given: the mean aggregation of the first kernel's result over the edge list. -/
theorem at_v23 : after (hostOps1 (F := Ideal)) W (Proc.devRef .tc main_v23)
    = agg (W (Proc.devRef .tc main_v0)) (W (Proc.devRef .tc main_arg1)) := by
  dsimp only [hostOps1]
  after_results_simp
  rfl

set_option maxHeartbeats 4000000 in
/-- No host operation writes the node features. -/
theorem at_arg0 : after (hostOps1 (F := Ideal)) W (Proc.devRef .tc main_arg0)
    = W (Proc.devRef .tc main_arg0) := by
  dsimp only [hostOps1]
  after_results_simp

set_option maxHeartbeats 4000000 in
/-- The input-side weights of the recurrent cell, transposed. -/
theorem at_v24 : after (hostOps1 (F := Ideal)) W (Proc.devRef .tc main_v24)
    = transpose S64x192 [1, 0] (W (Proc.devRef .tc main_arg3)) transposes_S192x64_S64x192_1_0 := by
  dsimp only [hostOps1]
  after_results_simp

set_option maxHeartbeats 4000000 in
/-- The hidden-side weights of the recurrent cell, transposed. -/
theorem at_v25 : after (hostOps1 (F := Ideal)) W (Proc.devRef .tc main_v25)
    = transpose S64x192 [1, 0] (W (Proc.devRef .tc main_arg4)) transposes_S192x64_S64x192_1_0 := by
  dsimp only [hostOps1]
  after_results_simp

set_option maxHeartbeats 4000000 in
/-- The input-side bias of the recurrent cell as one row. -/
theorem at_v26 : after (hostOps1 (F := Ideal)) W (Proc.devRef .tc main_v26)
    = shapeCast S1x192 (W (Proc.devRef .tc main_arg5)) shapeCasts_S192_S1x192 := by
  dsimp only [hostOps1]
  after_results_simp
  rfl

set_option maxHeartbeats 4000000 in
/-- The hidden-side bias of the recurrent cell as one row. -/
theorem at_v27 : after (hostOps1 (F := Ideal)) W (Proc.devRef .tc main_v27)
    = shapeCast S1x192 (W (Proc.devRef .tc main_arg6)) shapeCasts_S192_S1x192 := by
  dsimp only [hostOps1]
  after_results_simp
  rfl

set_option maxHeartbeats 4000000 in
/-- The gates' weights, transposed. -/
theorem at_v28 : after (hostOps1 (F := Ideal)) W (Proc.devRef .tc main_v28)
    = transpose S64x256 [1, 0] (W (Proc.devRef .tc main_arg7)) transposes_S256x64_S64x256_1_0 := by
  dsimp only [hostOps1]
  after_results_simp

set_option maxHeartbeats 4000000 in
/-- The gates' first bias as one row. -/
theorem at_v29 : after (hostOps1 (F := Ideal)) W (Proc.devRef .tc main_v29)
    = shapeCast S1x256 (W (Proc.devRef .tc main_arg9)) shapeCasts_S256_S1x256 := by
  dsimp only [hostOps1]
  after_results_simp
  rfl

set_option maxHeartbeats 4000000 in
/-- The gates' second bias as one row. -/
theorem at_v30 : after (hostOps1 (F := Ideal)) W (Proc.devRef .tc main_v30)
    = shapeCast S1x256 (W (Proc.devRef .tc main_arg10)) shapeCasts_S256_S1x256 := by
  dsimp only [hostOps1]
  after_results_simp
  rfl

set_option maxHeartbeats 4000000 in
/-- The output layer's weights, transposed. -/
theorem at_v31 : after (hostOps1 (F := Ideal)) W (Proc.devRef .tc main_v31)
    = transpose S64x64 [1, 0] (W (Proc.devRef .tc main_arg11)) transposes_S64x64_S64x64_1_0 := by
  dsimp only [hostOps1]
  after_results_simp

set_option maxHeartbeats 4000000 in
/-- The output layer's bias as one row. -/
theorem at_v32 : after (hostOps1 (F := Ideal)) W (Proc.devRef .tc main_v32)
    = shapeCast S1x64 (W (Proc.devRef .tc main_arg12)) shapeCasts_S64_S1x64 := by
  dsimp only [hostOps1]
  after_results_simp
  rfl

end Cert.KernelIdeal.HostMid

end
-- ==== Proof.KernelValue.lean ====
/-
  The kernel program's result as one function of its arguments.

  The program runs the first kernel, the host operations of Proof/HostMid.lean, then the second kernel.  The first
  kernel leaves the product of the node features with the first weight matrix; the host operations turn it into the
  mean aggregation over the edge list and prepare the weights and biases; the second kernel leaves the row function of
  the node features and the aggregated messages.  Composed: the result buffer ends holding `result` of the argument
  arrays, and the argument arrays end as they were.
-/
import proofs.«172775_j80719615361185_1_alg».proof.Proof.FrameResult
import proofs.«172775_j80719615361185_1_alg».proof.Proof.BlockRows
import proofs.«172775_j80719615361185_1_alg».proof.Proof.HostMid

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.BlockRows Cert.KernelIdeal.HostMid

/-- What the result buffer ends holding, from the argument arrays. -/
def result (x : FVec Ideal S100000x64 .f32) (e : IVec S2x1600000 32) (w2 : FVec Ideal S64x64 .f32) (w3 w4 : FVec Ideal S192x64 .f32)
    (b5 b6 : FVec Ideal S192 .f32) (w7 : FVec Ideal S256x64 .f32) (b9 b10 : FVec Ideal S256 .f32) (w11 : FVec Ideal S64x64 .f32)
    (b12 : FVec Ideal S64 .f32) : S100000x64.Idx → EReal :=
  G1 x (agg (G0 x w2) e)
    (transpose S64x192 [1, 0] w3 transposes_S192x64_S64x192_1_0) (transpose S64x192 [1, 0] w4 transposes_S192x64_S64x192_1_0)
    (shapeCast S1x192 b5 shapeCasts_S192_S1x192) (shapeCast S1x192 b6 shapeCasts_S192_S1x192)
    (transpose S64x256 [1, 0] w7 transposes_S256x64_S64x256_1_0)
    (shapeCast S1x256 b9 shapeCasts_S256_S1x256) (shapeCast S1x256 b10 shapeCasts_S256_S1x256)
    (transpose S64x64 [1, 0] w11 transposes_S64x64_S64x64_1_0) (shapeCast S1x64 b12 shapeCasts_S64_S1x64)

variable (m : (ℓ : Loc nD τ sig) → Buf (Elt Ideal) ℓ) (ρ : Dev nD → PrngReg)

/-- The node features reach the second kernel as launched: the first kernel only reads them and no host operation writes them. -/
theorem in_arg0 (c : Dev nD) : V2 m ρ c main_arg0 = m ((c.tc : Thread nD τ).loc main_arg0) :=
  (at_arg0 (W1 m ρ c)).trans ((W1_arr m ρ c 0).trans (((dat0 (V0 m ρ) c).arrAt_in 0 rfl _).trans (A_eq0 (V0 m ρ) c 0)))

/-- The first kernel's result array after its region. -/
theorem mid_v0 (c : Dev nD) : W1 m ρ c (Proc.devRef .tc main_v0)
    = G0 (m ((c.tc : Thread nD τ).loc main_arg0)) (m ((c.tc : Thread nD τ).loc main_arg2)) :=
  (W1_arr m ρ c 2).trans (final0 (V0 m ρ) c)

/-- The aggregated messages reach the second kernel as the mean aggregation of the first kernel's result. -/
theorem in_v23 (c : Dev nD) : V2 m ρ c main_v23
    = agg (G0 (m ((c.tc : Thread nD τ).loc main_arg0)) (m ((c.tc : Thread nD τ).loc main_arg2))) (m ((c.tc : Thread nD τ).loc main_arg1)) := by
  refine (at_v23 (W1 m ρ c)).trans ?_
  rw [mid_v0 m ρ c, W1_of_ne m ρ c main_arg1 (by decide)]

theorem in_v24 (c : Dev nD) : V2 m ρ c main_v24 = transpose S64x192 [1, 0] (m ((c.tc : Thread nD τ).loc main_arg3)) transposes_S192x64_S64x192_1_0 :=
  (at_v24 (W1 m ρ c)).trans (congrArg (fun w => transpose S64x192 [1, 0] w transposes_S192x64_S64x192_1_0) (W1_of_ne m ρ c main_arg3 (by decide)))
theorem in_v25 (c : Dev nD) : V2 m ρ c main_v25 = transpose S64x192 [1, 0] (m ((c.tc : Thread nD τ).loc main_arg4)) transposes_S192x64_S64x192_1_0 :=
  (at_v25 (W1 m ρ c)).trans (congrArg (fun w => transpose S64x192 [1, 0] w transposes_S192x64_S64x192_1_0) (W1_of_ne m ρ c main_arg4 (by decide)))
theorem in_v26 (c : Dev nD) : V2 m ρ c main_v26 = shapeCast S1x192 (m ((c.tc : Thread nD τ).loc main_arg5)) shapeCasts_S192_S1x192 :=
  (at_v26 (W1 m ρ c)).trans (congrArg (fun b => shapeCast S1x192 b shapeCasts_S192_S1x192) (W1_of_ne m ρ c main_arg5 (by decide)))
theorem in_v27 (c : Dev nD) : V2 m ρ c main_v27 = shapeCast S1x192 (m ((c.tc : Thread nD τ).loc main_arg6)) shapeCasts_S192_S1x192 :=
  (at_v27 (W1 m ρ c)).trans (congrArg (fun b => shapeCast S1x192 b shapeCasts_S192_S1x192) (W1_of_ne m ρ c main_arg6 (by decide)))
theorem in_v28 (c : Dev nD) : V2 m ρ c main_v28 = transpose S64x256 [1, 0] (m ((c.tc : Thread nD τ).loc main_arg7)) transposes_S256x64_S64x256_1_0 :=
  (at_v28 (W1 m ρ c)).trans (congrArg (fun w => transpose S64x256 [1, 0] w transposes_S256x64_S64x256_1_0) (W1_of_ne m ρ c main_arg7 (by decide)))
theorem in_v29 (c : Dev nD) : V2 m ρ c main_v29 = shapeCast S1x256 (m ((c.tc : Thread nD τ).loc main_arg9)) shapeCasts_S256_S1x256 :=
  (at_v29 (W1 m ρ c)).trans (congrArg (fun b => shapeCast S1x256 b shapeCasts_S256_S1x256) (W1_of_ne m ρ c main_arg9 (by decide)))
theorem in_v30 (c : Dev nD) : V2 m ρ c main_v30 = shapeCast S1x256 (m ((c.tc : Thread nD τ).loc main_arg10)) shapeCasts_S256_S1x256 :=
  (at_v30 (W1 m ρ c)).trans (congrArg (fun b => shapeCast S1x256 b shapeCasts_S256_S1x256) (W1_of_ne m ρ c main_arg10 (by decide)))
theorem in_v31 (c : Dev nD) : V2 m ρ c main_v31 = transpose S64x64 [1, 0] (m ((c.tc : Thread nD τ).loc main_arg11)) transposes_S64x64_S64x64_1_0 :=
  (at_v31 (W1 m ρ c)).trans (congrArg (fun w => transpose S64x64 [1, 0] w transposes_S64x64_S64x64_1_0) (W1_of_ne m ρ c main_arg11 (by decide)))
theorem in_v32 (c : Dev nD) : V2 m ρ c main_v32 = shapeCast S1x64 (m ((c.tc : Thread nD τ).loc main_arg12)) shapeCasts_S64_S1x64 :=
  (at_v32 (W1 m ρ c)).trans (congrArg (fun b => shapeCast S1x64 b shapeCasts_S64_S1x64) (W1_of_ne m ρ c main_arg12 (by decide)))

/-- THE RESULT BUFFER after the last region is `result` of the argument arrays. -/
theorem result_eq (c : Dev nD) : W3 m ρ c (Proc.devRef .tc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) := by
  refine (W3_arr m ρ c 11).trans ?_
  rw [final1 (V2 m ρ) c, in_arg0 m ρ c, in_v23 m ρ c, in_v24 m ρ c, in_v25 m ρ c, in_v26 m ρ c, in_v27 m ρ c, in_v28 m ρ c,
    in_v29 m ρ c, in_v30 m ρ c, in_v31 m ρ c, in_v32 m ρ c]
  rfl

/-- THE KERNEL PROGRAM'S RUN: every weakly fair execution terminates with the result buffer at `result` of the argument
    arrays and the argument arrays unchanged. -/
theorem run : θ_run defs (onTc (τ := τ) (main (F := Ideal))) ⟨m, fun _ => 0, ρ⟩ (fun r => ∀ c : Dev nD,
      r.2.mem ((c.tc : Thread nD τ).loc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result_eq m ρ c), (h c).2⟩) (frame_result (F := Ideal) m ρ)

end Cert.KernelIdeal.KernelValue

end
-- ==== Proof.RefRows.lean ====
/-
  The reference, read one entry at a time.

  After the mean aggregation the reference computes, on all 100000 rows at once, what the second kernel computes on
  blocks of rows: two linear layers, the gated recurrent cell, a third linear layer with two biases, one step of the
  long short-term cell, the rectifier and the output layer.  Its logistic is spelt as quotient, sum, exponential and
  negation, and every weight matrix is transposed before its product.  Entry (p, c) of its result is the row function
  of Proof/RowSpec.lean at row p of the node features and of the aggregated messages, column c — the same reading as
  the kernel's body, with 100000 rows in place of 2000.
-/
import proofs.«172775_j80719615361185_1_alg».proof.Proof.Gen.ReferenceIdeal.Read
import proofs.«172775_j80719615361185_1_alg».proof.Proof.RowSpec
import proofs.«172775_j80719615361185_1_alg».proof.Proof.LibPlainDot
import Idealize.ShloMosaic.Lib.ValueIdx
import Idealize.ShloMosaic.Lib.ValueLayout
import Idealize.ShloMosaic.Lib.Pipeline.Value

noncomputable section

namespace Cert.ReferenceIdeal.RefRows

open Idealize.ShloMosaic Idealize.ShloMosaic.ValueIdx Cert.ReferenceIdeal Cert.ReferenceIdeal.Gen Cert.ReferenceIdeal.Read Cert.RowSpec Cert.LibPlainDot

/-! ## The vector-level pieces -/

/-- A linear layer into 192 columns on all rows: the rows times the (already transposed) weights, plus the bias laid along the rows. -/
def lin192 (a : FVec Ideal S100000x64 .f32) (w : FVec Ideal S64x192 .f32) (b : FVec Ideal S192 .f32) : FVec Ideal S100000x192 .f32 :=
  addf (Host.dotGeneral dot_S100000x64_S64x192_S100000x192_1_0_0_1_n_n none a w)
    (broadcastInDim S100000x192 ![0, 1] bcast_S1x192_S100000x192_0_1 (broadcastInDim S1x192 ![1] bcast_S192_S1x192_1 b))

/-- The number 1 at every entry. -/
def ones : FVec Ideal S100000x64 .f32 := broadcastInDim S100000x64 ![] bcast_S_S100000x64 (constant (F := Ideal) S_ .f32 0x3F800000#32)

/-- The logistic on all entries, as the reference spells it. -/
def sigV (z : FVec Ideal S100000x64 .f32) : FVec Ideal S100000x64 .f32 :=
  Host.divf (F := Ideal) ones (addf ones (Host.exp (Host.negf z)))

/-- The three 64-column thirds of a 192-column array. -/
def th0 (g : FVec Ideal S100000x192 .f32) : FVec Ideal S100000x64 .f32 := extractStridedSlice S100000x64 ![0, 0] g slices_S100000x192_S100000x64_0_0
def th1 (g : FVec Ideal S100000x192 .f32) : FVec Ideal S100000x64 .f32 := extractStridedSlice S100000x64 ![0, 64] g slices_S100000x192_S100000x64_0_64
def th2 (g : FVec Ideal S100000x192 .f32) : FVec Ideal S100000x64 .f32 := extractStridedSlice S100000x64 ![0, 128] g slices_S100000x192_S100000x64_0_128

/-- The gated recurrent cell on all rows. -/
def gruV (gi gh : FVec Ideal S100000x192 .f32) (x : FVec Ideal S100000x64 .f32) : FVec Ideal S100000x64 .f32 :=
  addf (mulf (subf ones (sigV (addf (th1 gi) (th1 gh)))) (Host.tanh (addf (th2 gi) (mulf (sigV (addf (th0 gi) (th0 gh))) (th2 gh)))))
    (mulf (sigV (addf (th1 gi) (th1 gh))) x)

/-- The four gates' pre-activations on all rows. -/
def gatesV (h : FVec Ideal S100000x64 .f32) (w : FVec Ideal S64x256 .f32) (b1 b2 : FVec Ideal S256 .f32) : FVec Ideal S100000x256 .f32 :=
  addf (addf (Host.dotGeneral dot_S100000x64_S64x256_S100000x256_1_0_0_1_n_n none h w)
      (broadcastInDim S100000x256 ![0, 1] bcast_S1x256_S100000x256_0_1 (broadcastInDim S1x256 ![1] bcast_S256_S1x256_1 b1)))
    (broadcastInDim S100000x256 ![0, 1] bcast_S1x256_S100000x256_0_1 (broadcastInDim S1x256 ![1] bcast_S256_S1x256_1 b2))

/-- The first, third and fourth 64-column quarters of a 256-column array. -/
def qu0 (g : FVec Ideal S100000x256 .f32) : FVec Ideal S100000x64 .f32 := extractStridedSlice S100000x64 ![0, 0] g slices_S100000x256_S100000x64_0_0
def qu2 (g : FVec Ideal S100000x256 .f32) : FVec Ideal S100000x64 .f32 := extractStridedSlice S100000x64 ![0, 128] g slices_S100000x256_S100000x64_0_128
def qu3 (g : FVec Ideal S100000x256 .f32) : FVec Ideal S100000x64 .f32 := extractStridedSlice S100000x64 ![0, 192] g slices_S100000x256_S100000x64_0_192

/-- The long short-term cell's output on all rows. -/
def lstmV (g : FVec Ideal S100000x256 .f32) : FVec Ideal S100000x64 .f32 :=
  mulf (sigV (qu3 g)) (Host.tanh (mulf (sigV (qu0 g)) (Host.tanh (qu2 g))))

/-- The rectifier and the output layer on all rows. -/
def outV (h : FVec Ideal S100000x64 .f32) (w : FVec Ideal S64x64 .f32) (b : FVec Ideal S64 .f32) : FVec Ideal S100000x64 .f32 :=
  addf (Host.dotGeneral dot_S100000x64_S64x64_S100000x64_1_0_0_1_n_n none
      (maximumf h (broadcastInDim S100000x64 ![] bcast_S_S100000x64 (constant (F := Ideal) S_ .f32 0x00000000#32))) w)
    (broadcastInDim S100000x64 ![0, 1] bcast_S1x64_S100000x64_0_1 (broadcastInDim S1x64 ![1] bcast_S64_S1x64_1 b))

/-- THE REFERENCE'S RESULT is these pieces composed, from the aggregated messages on. -/
theorem v95_eq (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 x4 : (⟨S192x64, .f32⟩ : BufTy).Contents (Elt Ideal)) (x5 x6 : (⟨S192, .f32⟩ : BufTy).Contents (Elt Ideal))
    (x7 : (⟨S256x64, .f32⟩ : BufTy).Contents (Elt Ideal)) (x9 x10 : (⟨S256, .f32⟩ : BufTy).Contents (Elt Ideal))
    (x11 : (⟨S64x64, .f32⟩ : BufTy).Contents (Elt Ideal)) (x12 : (⟨S64, .f32⟩ : BufTy).Contents (Elt Ideal)) :
    val_main_v95 (F := Ideal) x0 x1 x2 x3 x4 x5 x6 x7 x9 x10 x11 x12
      = outV (lstmV (gatesV (gruV (lin192 (val_main_v23 (F := Ideal) x0 x1 x2) (val_main_v24 (F := Ideal) x3) x5)
                (lin192 x0 (val_main_v29 (F := Ideal) x4) x6) x0) (val_main_v62 (F := Ideal) x7) x9 x10))
          (val_main_v91 (F := Ideal) x11) x12 := rfl

/-! ## The pieces at an entry -/

theorem lin192_at (a : FVec Ideal S100000x64 .f32) (w : FVec Ideal S64x192 .f32) (b : FVec Ideal S192 .f32) (p : Fin 100000) (j : Fin 192) :
    lin192 a w b (ix2 p j) = lin (fun k => a (ix2 p k)) (fun k j => w (ix2 k j)) (fun j => b (ix1 j)) j :=
  dot_bias_at 100000 64 192 _ rfl a w b _ _ p j

theorem sigV_at (z : FVec Ideal S100000x64 .f32) (i : S100000x64.Idx) : sigV z i = Cert.RowSpec.sig (z i) := rfl

theorem th0_at (g : FVec Ideal S100000x192 .f32) (p : Fin 100000) (c : Fin 64) : th0 g (ix2 p c) = g (ix2 p (t0 c)) :=
  slice2_axis1_apply 0 g _ p c (t0 c) (by show c.val = 0 + c.val; omega)
theorem th1_at (g : FVec Ideal S100000x192 .f32) (p : Fin 100000) (c : Fin 64) : th1 g (ix2 p c) = g (ix2 p (t1 c)) :=
  slice2_axis1_apply 64 g _ p c (t1 c) rfl
theorem th2_at (g : FVec Ideal S100000x192 .f32) (p : Fin 100000) (c : Fin 64) : th2 g (ix2 p c) = g (ix2 p (t2 c)) :=
  slice2_axis1_apply 128 g _ p c (t2 c) rfl

theorem gruV_at (gi gh : FVec Ideal S100000x192 .f32) (x : FVec Ideal S100000x64 .f32) (p : Fin 100000) (c : Fin 64) :
    gruV gi gh x (ix2 p c) = gruOf (fun j => gi (ix2 p j)) (fun j => gh (ix2 p j)) (fun k => x (ix2 p k)) c := by
  show (one - Cert.RowSpec.sig (th1 gi (ix2 p c) + th1 gh (ix2 p c)))
        * Ideal.tanh (th2 gi (ix2 p c) + Cert.RowSpec.sig (th0 gi (ix2 p c) + th0 gh (ix2 p c)) * th2 gh (ix2 p c))
      + Cert.RowSpec.sig (th1 gi (ix2 p c) + th1 gh (ix2 p c)) * x (ix2 p c) = _
  rw [th0_at, th0_at, th1_at, th1_at, th2_at, th2_at]
  rfl

theorem gatesV_at (h : FVec Ideal S100000x64 .f32) (w : FVec Ideal S64x256 .f32) (b1 b2 : FVec Ideal S256 .f32) (p : Fin 100000) (j : Fin 256) :
    gatesV h w b1 b2 (ix2 p j) = lin (fun k => h (ix2 p k)) (fun k j => w (ix2 k j)) (fun j => b1 (ix1 j)) j + b2 (ix1 j) := by
  unfold gatesV
  rw [addf_apply]
  exact congrArg₂ (· + ·) (dot_bias_at 100000 64 256 _ rfl h w b1 _ _ p j) (biasRowsInDim_apply b2 _ _ p j)

theorem qu0_at (g : FVec Ideal S100000x256 .f32) (p : Fin 100000) (c : Fin 64) : qu0 g (ix2 p c) = g (ix2 p (q0 c)) :=
  slice2_axis1_apply 0 g _ p c (q0 c) (by show c.val = 0 + c.val; omega)
theorem qu2_at (g : FVec Ideal S100000x256 .f32) (p : Fin 100000) (c : Fin 64) : qu2 g (ix2 p c) = g (ix2 p (q2 c)) :=
  slice2_axis1_apply 128 g _ p c (q2 c) rfl
theorem qu3_at (g : FVec Ideal S100000x256 .f32) (p : Fin 100000) (c : Fin 64) : qu3 g (ix2 p c) = g (ix2 p (q3 c)) :=
  slice2_axis1_apply 192 g _ p c (q3 c) rfl

theorem lstmV_at (g : FVec Ideal S100000x256 .f32) (p : Fin 100000) (c : Fin 64) :
    lstmV g (ix2 p c) = lstmOf (fun j => g (ix2 p j)) c := by
  show Cert.RowSpec.sig (qu3 g (ix2 p c)) * Ideal.tanh (Cert.RowSpec.sig (qu0 g (ix2 p c)) * Ideal.tanh (qu2 g (ix2 p c))) = _
  rw [qu0_at, qu2_at, qu3_at]
  rfl

theorem outV_at (h : FVec Ideal S100000x64 .f32) (w : FVec Ideal S64x64 .f32) (b : FVec Ideal S64 .f32) (p : Fin 100000) (c : Fin 64) :
    outV h w b (ix2 p c) = outRow (fun k => h (ix2 p k)) (fun k j => w (ix2 k j)) (fun j => b (ix1 j)) c :=
  dot_bias_at 100000 64 64 _ rfl _ w b _ _ p c

/-- THE REFERENCE'S RESULT at entry (p, c): the row function at row p of the node features and of the aggregated messages. -/
theorem ref_at (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 x4 : (⟨S192x64, .f32⟩ : BufTy).Contents (Elt Ideal)) (x5 x6 : (⟨S192, .f32⟩ : BufTy).Contents (Elt Ideal))
    (x7 : (⟨S256x64, .f32⟩ : BufTy).Contents (Elt Ideal)) (x9 x10 : (⟨S256, .f32⟩ : BufTy).Contents (Elt Ideal))
    (x11 : (⟨S64x64, .f32⟩ : BufTy).Contents (Elt Ideal)) (x12 : (⟨S64, .f32⟩ : BufTy).Contents (Elt Ideal)) (p : Fin 100000) (c : Fin 64) :
    val_main_v95 (F := Ideal) x0 x1 x2 x3 x4 x5 x6 x7 x9 x10 x11 x12 (ix2 p c)
      = rowOut (fun k => x0 (ix2 p k)) (fun k => val_main_v23 (F := Ideal) x0 x1 x2 (ix2 p k))
          (fun k j => val_main_v24 (F := Ideal) x3 (ix2 k j)) (fun k j => val_main_v29 (F := Ideal) x4 (ix2 k j))
          (fun j => x5 (ix1 j)) (fun j => x6 (ix1 j)) (fun k j => val_main_v62 (F := Ideal) x7 (ix2 k j))
          (fun j => x9 (ix1 j)) (fun j => x10 (ix1 j)) (fun k j => val_main_v91 (F := Ideal) x11 (ix2 k j)) (fun j => x12 (ix1 j)) c := by
  rw [v95_eq, outV_at]
  unfold rowOut
  refine congrArg (fun h => outRow h (fun k j => val_main_v91 (F := Ideal) x11 (ix2 k j)) (fun j => x12 (ix1 j)) c) (funext fun k => ?_)
  rw [lstmV_at]
  unfold lstmRow
  refine congrArg (fun g => lstmOf g k) (funext fun j => ?_)
  rw [gatesV_at]
  refine congrArg (fun h => lin h (fun k j => val_main_v62 (F := Ideal) x7 (ix2 k j)) (fun j => x9 (ix1 j)) j + x10 (ix1 j)) (funext fun k' => ?_)
  rw [gruV_at]
  unfold gruRow
  exact congrArg₂ (fun gi gh => gruOf gi gh (fun k => x0 (ix2 p k)) k')
    (funext fun j => lin192_at (val_main_v23 (F := Ideal) x0 x1 x2) (val_main_v24 (F := Ideal) x3) x5 p j)
    (funext fun j => lin192_at x0 (val_main_v29 (F := Ideal) x4) x6 p j)

end Cert.ReferenceIdeal.RefRows

end
-- ==== Proof.Bridge.lean ====
/-
  The two programs compute one function.

  The reference's result at entry (p, c) and the kernel program's are both the row function of Proof/RowSpec.lean at
  row p of the node features and of the aggregated messages.  What is left to compare is what each side feeds it:
  the aggregated messages (the same mean aggregation of the same product: the reference's general dot product and the
  first kernel's blocks are one sum), the weights (the same transposes) and the biases (a vector laid along a one-row
  array by either of two spellings reads the vector's entry).
-/
import proofs.«172775_j80719615361185_1_alg».proof.Proof.KernelValue
import proofs.«172775_j80719615361185_1_alg».proof.Proof.RefRows

set_option maxRecDepth 16384

noncomputable section

namespace Cert.Proof.Bridge

open Idealize.ShloMosaic Idealize.ShloMosaic.ValueIdx Cert.RowSpec Cert.LibPlainDot

/-- The host's general dot product at entry (p, q). -/
theorem dot_at {φ₁ φ₂ : FTy} (M N : ℕ) (d : DotDims ⟨2, ![M, 64]⟩ ⟨2, ![64, N]⟩ ⟨2, ![M, N]⟩) (hd : d = DotDims.plain M 64 N)
    (l : FVec Ideal ⟨2, ![M, 64]⟩ φ₁) (r : FVec Ideal ⟨2, ![64, N]⟩ φ₂) (p : Fin M) (q : Fin N) :
    Host.dotGeneral d none l r (ix2 p q) = ∑ k : Fin 64, l (ix2 p k) * r (ix2 k q) := by
  subst hd; exact plain_dotGeneral M 64 N _ l r p q

/-- The reference's first product is what the first kernel's blocks add up to. -/
theorem v0_eq (x0 : (⟨Cert.ReferenceIdeal.S100000x64, .f32⟩ : BufTy).Contents (Elt Ideal)) (x2 : (⟨Cert.ReferenceIdeal.S64x64, .f32⟩ : BufTy).Contents (Elt Ideal)) :
    Cert.ReferenceIdeal.Read.val_main_v0 (F := Ideal) x0 x2 = Cert.KernelIdeal.BlockRows.G0 x0 x2 := by
  funext i
  obtain ⟨p, c, rfl⟩ : ∃ (p : Fin 100000) (c : Fin 64), i = ix2 p c := ⟨i 0, i 1, eq_ix2 i⟩
  exact dot_at 100000 64 _ rfl x0 x2 p c

/-- The reference's aggregated messages are the kernel program's: the same host operations on the same product. -/
theorem v23_eq (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) :
    Cert.ReferenceIdeal.Read.val_main_v23 (F := Ideal) x0 x1 x2
      = Cert.KernelIdeal.HostMid.agg (Cert.KernelIdeal.BlockRows.G0 x0 x2) x1 := by
  rw [← v0_eq]
  rfl

/-- THE TWO RESULTS ARE ONE FUNCTION of the arguments. -/
theorem result_eq (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal))
    (x3 x4 : (⟨Cert.ReferenceIdeal.S192x64, .f32⟩ : BufTy).Contents (Elt Ideal)) (x5 x6 : (⟨Cert.ReferenceIdeal.S192, .f32⟩ : BufTy).Contents (Elt Ideal))
    (x7 : (⟨Cert.ReferenceIdeal.S256x64, .f32⟩ : BufTy).Contents (Elt Ideal)) (x9 x10 : (⟨Cert.ReferenceIdeal.S256, .f32⟩ : BufTy).Contents (Elt Ideal))
    (x11 : (⟨Cert.ReferenceIdeal.S64x64, .f32⟩ : BufTy).Contents (Elt Ideal)) (x12 : (⟨Cert.ReferenceIdeal.S64, .f32⟩ : BufTy).Contents (Elt Ideal)) :
    Cert.ReferenceIdeal.Read.val_main_v95 (F := Ideal) x0 x1 x2 x3 x4 x5 x6 x7 x9 x10 x11 x12
      = Cert.KernelIdeal.KernelValue.result x0 x1 x2 x3 x4 x5 x6 x7 x9 x10 x11 x12 := by
  funext i
  obtain ⟨p, c, rfl⟩ : ∃ (p : Fin 100000) (c : Fin 64), i = ix2 p c := ⟨i 0, i 1, eq_ix2 i⟩
  rw [Cert.ReferenceIdeal.RefRows.ref_at]
  unfold Cert.KernelIdeal.KernelValue.result Cert.KernelIdeal.BlockRows.G1
  refine Cert.KernelIdeal.BlockRows.rowOut_congr rfl ?_ rfl rfl ?_ ?_ rfl ?_ ?_ rfl ?_ rfl
  · rw [v23_eq]; rfl
  · exact funext fun j => (shapeCast_a_1a_apply x5 _ (0 : Fin 1) j).symm
  · exact funext fun j => (shapeCast_a_1a_apply x6 _ (0 : Fin 1) j).symm
  · exact funext fun j => (shapeCast_a_1a_apply x9 _ (0 : Fin 1) j).symm
  · exact funext fun j => (shapeCast_a_1a_apply x10 _ (0 : Fin 1) j).symm
  · exact funext fun j => (shapeCast_a_1a_apply x12 _ (0 : Fin 1) j).symm

end Cert.Proof.Bridge

end
-- ==== Proof.lean ====
/-
  The kernel program and its reference compute the same gated graph layer over the extended reals.

  The layer: messages m = x · W, the mean of the messages over the edges arriving at each node, a gated recurrent
  cell on (mean, x), one step of a long short-term cell from a zero state, a rectifier and a linear output layer.
  The kernel program computes x · W in blocks of 10000 rows on the accelerator, the mean aggregation on the host with
  the reference's own operations, and everything after it in blocks of 2000 rows on the accelerator; the reference
  computes everything on all 100000 rows at once.  At the ideal values a change of float format is the identity, a
  matrix product is an exact sum, and the one-operation logistic is 1 / (1 + exp(-t)), which the reference spells out.

  The proof reads both results one entry at a time.  Entry (r, c) of either is ONE function (Proof/RowSpec.lean) of row
  r of the node features and row r of the aggregated messages; a matrix product's entry (r, j) reads its left operand
  only through row r, so blocks of rows and all rows agree (Proof/FusedRow.lean, Proof/BlockRows.lean for the kernels;
  Proof/RefRows.lean for the reference).  The aggregated messages are the same function of the same product on both
  sides and are never opened (Proof/HostMid.lean, Proof/Bridge.lean).  No law of arithmetic beyond re-indexing a finite
  sum is used, so the finiteness of the inputs is not needed.  The idealization rewrote no operation, so the second
  kind of claim is trivial; the three termination-and-unchanged-arguments claims are the generated ones.
-/
import proofs.«172775_j80719615361185_1_alg».proof.Defs
import proofs.«172775_j80719615361185_1_alg».proof.Proof.Gen.Kernel
import proofs.«172775_j80719615361185_1_alg».proof.Proof.Gen.Kernel.Skeleton
import proofs.«172775_j80719615361185_1_alg».proof.Proof.Gen.Kernel.Launch
import proofs.«172775_j80719615361185_1_alg».proof.Proof.Gen.Kernel.Points
import proofs.«172775_j80719615361185_1_alg».proof.Proof.Gen.Kernel.Frame
import proofs.«172775_j80719615361185_1_alg».proof.Proof.Gen.KernelIdeal
import proofs.«172775_j80719615361185_1_alg».proof.Proof.Gen.KernelIdeal.Skeleton
import proofs.«172775_j80719615361185_1_alg».proof.Proof.Gen.KernelIdeal.Launch
import proofs.«172775_j80719615361185_1_alg».proof.Proof.Gen.KernelIdeal.Points
import proofs.«172775_j80719615361185_1_alg».proof.Proof.Gen.KernelIdeal.Frame
import proofs.«172775_j80719615361185_1_alg».proof.Proof.Gen.ReferenceIdeal
import proofs.«172775_j80719615361185_1_alg».proof.Proof.Gen.ReferenceIdeal.Run
import proofs.«172775_j80719615361185_1_alg».proof.Proof.Gen.ReferenceIdeal.Read
import proofs.«172775_j80719615361185_1_alg».proof.Proof.Gen.Pre_finite_inputs
import proofs.«172775_j80719615361185_1_alg».proof.Proof.Bridge
import Idealize.ShloMosaic.Adequacy
import Idealize.ShloMosaic.Init

noncomputable section

namespace Cert.Proof

open Idealize.ShloMosaic Idealize.SL.Sem

/-- The kernel program, the idealized kernel program and the idealized reference each terminate without a fault and
    leave their argument arrays unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel program ends with its result buffer at `result` of
    the arguments and the idealized reference with its result at its composed term of the same arguments: one function. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq]
  obtain ⟨a0, a1, a2, a3, a4, a5, a6, a7, a8, a9, a10, a11, a12⟩ := hagree c
  rw [a0, a1, a2, a3, a4, a5, a6, a7, a9, a10, a11, a12]
  exact Cert.Proof.Bridge.result_eq _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
